-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32x32 : Shape := ⟨4, ![16, 512, 32, 32]⟩
abbrev S1024x1024 : Shape := ⟨2, ![1024, 1024]⟩
abbrev S_ : Shape := ⟨0, ![]⟩

class Facts : Prop where
  bcast_S_S16x512x32x32 : S_.BroadcastsInDim S16x512x32x32 (![] : Fin 0 → Fin S16x512x32x32.rank)
  reducesTo_S16x512x32x32_S_d0_1_2_3 : S16x512x32x32.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x512x32x32 .f32) (main_arg1 : FVec F S16x512x32x32 .f32) (main_arg2 : FVec F S1024x1024 .f32) : IVec S_ 1 :=
  let main_v0 : FVec F S16x512x32x32 .f32 := Host.absf main_arg0
  let main_cst : FVec F S_ .f32 := constant S_ .f32 0x7F800000#32
  let main_v1 : FVec F S16x512x32x32 .f32 := broadcastInDim S16x512x32x32 ![] bcast_S_S16x512x32x32 main_cst
  let main_v2 : IVec S16x512x32x32 1 := cmpf .olt main_v0 main_v1
  let main_c : IVec S_ 1 := constantI S_ 1 1#1
  let main_v3 : IVec S_ 1 := (fun x v => Host.reduce IntOp.andi x v reducesTo_S16x512x32x32_S_d0_1_2_3 h_S_) main_v2 main_c
  let main_v4 : FVec F S16x512x32x32 .f32 := Host.absf main_arg1
  let main_cst_0 : FVec F S_ .f32 := constant S_ .f32 0x7F800000#32
  let main_v5 : FVec F S16x512x32x32 .f32 := broadcastInDim S16x512x32x32 ![] bcast_S_S16x512x32x32 main_cst_0
  let main_v6 : IVec S16x512x32x32 1 := cmpf .olt main_v4 main_v5
  let main_c_1 : IVec S_ 1 := constantI S_ 1 1#1
  let main_v7 : IVec S_ 1 := (fun x v => Host.reduce IntOp.andi x v reducesTo_S16x512x32x32_S_d0_1_2_3 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16x512x32x32 : Shape := ⟨4, ![16, 512, 32, 32]⟩
abbrev S1024x1024 : Shape := ⟨2, ![1024, 1024]⟩
abbrev S16x512x1024 : Shape := ⟨3, ![16, 512, 1024]⟩
abbrev S1x512x1024 : Shape := ⟨3, ![1, 512, 1024]⟩
abbrev S512x1024 : Shape := ⟨2, ![512, 1024]⟩
abbrev S512x256 : Shape := ⟨2, ![512, 256]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S16x512x32x32, .f32⟩
  | .hbm, ⟨1, _⟩ => ⟨S16x512x32x32, .f32⟩
  | .hbm, ⟨2, _⟩ => ⟨S1024x1024, .f32⟩
  | .hbm, ⟨3, _⟩ => ⟨S16x512x1024, .f32⟩
  | .hbm, ⟨4, _⟩ => ⟨S16x512x1024, .f32⟩
  | .hbm, ⟨5, _⟩ => ⟨S1024x1024, .f32⟩
  | .hbm, ⟨6, _⟩ => ⟨S1024x1024, .bf16⟩
  | .hbm, ⟨7, _⟩ => ⟨S16x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | _, _ => ⟨S16x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x512x32x32_S16x512x1024 : S16x512x32x32.ShapeCasts S16x512x1024
  transposes_S1024x1024_S1024x1024_1_0 : S1024x1024.Transposes [1, 0] S1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S512x1024_o0_0_S512x256 : S512x1024.Slices ![0, 0] S512x256
  reduces_S256x1024_S256 : S256x1024.Reduces [1] S256
  shapeCasts_S256_S256x1 : S256.ShapeCasts S256x1
  broadcasts_S256x1_S256x1024 : S256x1.Broadcasts S256x1024
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x256_S512x1024_S256x1024_0_0_1_1_n_n_wf : DotDims.WF S512x256 S512x1024 S256x1024 [0] [0] [1] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x512x1024.size a
  hwx0_0 : ∀ i : grid0.Coords, EltTy.bits .f32 = 32 ∨ (Rect.block (s := S16x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x512x1024.size a
  hwx0_1 : ∀ i : grid0.Coords, EltTy.bits .f32 = 32 ∨ (Rect.block (s := S16x512x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x512x1024.size a
  hwx0_3 : ∀ i : grid0.Coords, EltTy.bits .f32 = 32 ∨ (Rect.block (s := S16x512x1024) S1x512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x256_S512x1024_S256x1024_0_0_1_1_n_n : DotDims S512x256 S512x1024 S256x1024 where
  lhsContracting := [0]
  rhsContracting := [0]
  lhsNonContracting := [1]
  rhsNonContracting := [1]
  lhsBatch := []
  rhsBatch := []
  wf := dot_S512x256_S512x1024_S256x1024_0_0_1_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x32x32 : Shape := ⟨4, ![16, 512, 32, 32]⟩
abbrev S1024x1024 : Shape := ⟨2, ![1024, 1024]⟩
abbrev S16x512x1024 : Shape := ⟨3, ![16, 512, 1024]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x512x32x32, .f32⟩
  | .hbm, ⟨1, _⟩ => ⟨S16x512x32x32, .f32⟩
  | .hbm, ⟨2, _⟩ => ⟨S1024x1024, .f32⟩
  | .hbm, ⟨3, _⟩ => ⟨S16x512x1024, .f32⟩
  | .hbm, ⟨4, _⟩ => ⟨S16x512x1024, .f32⟩
  | .hbm, ⟨5, _⟩ => ⟨S16x512x1024, .f32⟩
  | .hbm, ⟨6, _⟩ => ⟨S16x1024x1024, .f32⟩
  | .hbm, ⟨7, _⟩ => ⟨S_, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024x1, .f32⟩
  | .hbm, ⟨13, _⟩ => ⟨S16x1024x1024, .f32⟩
  | .hbm, ⟨14, _⟩ => ⟨S16x1024x1024, .f32⟩
  | .hbm, ⟨15, _⟩ => ⟨S16x1024x1024, .f32⟩
  | .hbm, ⟨16, _⟩ => ⟨S_, .f32⟩
  | .hbm, ⟨17, _⟩ => ⟨S16x1024, .f32⟩
  | .hbm, ⟨18, _⟩ => ⟨S16x1024x1, .f32⟩
  | .hbm, ⟨19, _⟩ => ⟨S16x1024x1024, .f32⟩
  | .hbm, ⟨20, _⟩ => ⟨S16x1024x1024, .f32⟩
  | .hbm, ⟨21, _⟩ => ⟨S16x512x1024, .f32⟩
  | _, _ => ⟨S16x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S16x512x32x32_S16x512x1024 : S16x512x32x32.ShapeCasts S16x512x1024
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x512x1024_S1024x1024_S16x512x1024_2_1_01_0_n_n_wf : DotDims.WF S16x512x1024 S1024x1024 S16x512x1024 [2] [1] [0, 1] [0] [] []
  dot_S16x512x1024_S16x512x1024_S16x1024x1024_1_1_2_2_0_0_wf : DotDims.WF S16x512x1024 S16x512x1024 S16x1024x1024 [1] [1] [2] [2] [0] [0]
  dot_S16x512x1024_S16x1024x1024_S16x512x1024_2_1_1_2_0_0_wf : DotDims.WF S16x512x1024 S16x1024x1024 S16x512x1024 [2] [1] [1] [2] [0] [0]

variable [Facts₀]

def dot_S16x512x1024_S1024x1024_S16x512x1024_2_1_01_0_n_n : DotDims S16x512x1024 S1024x1024 S16x512x1024 where
  lhsContracting := [2]
  rhsContracting := [1]
  lhsNonContracting := [0, 1]
  rhsNonContracting := [0]
  lhsBatch := []
  rhsBatch := []
  wf := dot_S16x512x1024_S1024x1024_S16x512x1024_2_1_01_0_n_n_wf
def dot_S16x512x1024_S16x512x1024_S16x1024x1024_1_1_2_2_0_0 : DotDims S16x512x1024 S16x512x1024 S16x1024x1024 where
  lhsContracting := [1]
  rhsContracting := [1]
  lhsNonContracting := [2]
  rhsNonContracting := [2]
  lhsBatch := [0]
  rhsBatch := [0]
  wf := dot_S16x512x1024_S16x512x1024_S16x1024x1024_1_1_2_2_0_0_wf
def dot_S16x512x1024_S16x1024x1024_S16x512x1024_2_1_1_2_0_0 : DotDims S16x512x1024 S16x1024x1024 S16x512x1024 where
  lhsContracting := [2]
  rhsContracting := [1]
  lhsNonContracting := [1]
  rhsNonContracting := [2]
  lhsBatch := [0]
  rhsBatch := [0]
  wf := dot_S16x512x1024_S16x1024x1024_S16x512x1024_2_1_1_2_0_0_wf

class Facts : Prop extends Facts₀ where

variable [Facts]
-- ==== Proof.Attention.lean ====
/-
  The mathematics both programs compute, for ONE batch element, over plain coordinates.

  From two feature maps `n1, n2 : [512, 1024]` (channels × positions) and a weight `w : [1024, 1024]`:
    projected   x[c, o] = Σ_h n1[c, h] · w[o, h]
    scores      e[o, h] = Σ_c x[c, o] · n2[c, h]
    attention   a[o, ·] = softmax of row e[o, ·], taken as  exp(e − max) / Σ exp(e − max)
    result      m[c, j] = Σ_k n2[c, k] · a[k, j]
  on the extended reals. The running maximum starts from the word both programs print for −∞, kept as that word.

  Two laws join the two programs. A row maximum that starts at −∞ is unchanged by one more `max` with −∞. A sum
  over 1024 positions is the sum of its four consecutive quarters, added one after the other to zero: only that
  addition commutes and associates is used, so nothing here needs the inputs finite.
-/
import Idealize.ShloMosaic.PureOps.Ideal
import Idealize.ShloMosaic.PureOps.Ideal.Laws
import Idealize.ShloMosaic.Lib.ValueIdx

noncomputable section

namespace Cert.Attention

open Idealize.ShloMosaic

/-- The value a running maximum starts from: the f32 word of −∞, as printed in both programs. -/
abbrev negInf : EReal := Ideal.ofBits .f32 0xFF800000#32

/-- The maximum of a row of 1024 scores, started at `negInf`. -/
def rowMax (e : Fin 1024 → EReal) : EReal := (Finset.univ : Finset (Fin 1024)).fold max negInf e

/-- The softmax of a row at position `j`: `exp (e j − max) / Σ_h exp (e h − max)`. -/
def softmaxRow (e : Fin 1024 → EReal) (j : Fin 1024) : EReal :=
  Ideal.div (Ideal.exp (e j - rowMax e)) (∑ h : Fin 1024, Ideal.exp (e h - rowMax e))

/-- The projected features `x[c, o] = Σ_h n1[c, h] · w[o, h]`. -/
def proj (n1 : Fin 512 → Fin 1024 → EReal) (w : Fin 1024 → Fin 1024 → EReal) (c : Fin 512) (o : Fin 1024) : EReal :=
  ∑ h : Fin 1024, n1 c h * w o h

/-- The scores `e[o, h] = Σ_c x[c, o] · n2[c, h]`. -/
def score (n1 n2 : Fin 512 → Fin 1024 → EReal) (w : Fin 1024 → Fin 1024 → EReal) (o h : Fin 1024) : EReal :=
  ∑ c : Fin 512, proj n1 w c o * n2 c h

/-- The result `m[c, j] = Σ_k n2[c, k] · softmax(e[k, ·])[j]`. -/
def attend (n1 n2 : Fin 512 → Fin 1024 → EReal) (w : Fin 1024 → Fin 1024 → EReal) (c : Fin 512) (j : Fin 1024) : EReal :=
  ∑ k : Fin 1024, n2 c k * softmaxRow (score n1 n2 w k) j

/-- Position `h` of a flattened 32 × 32 map is row `h / 32`, column `h % 32`: the index of the four-axis array that the
    flattened `[16, 512, 1024]` view reads at `(b, c, h)`. -/
def unflat (b : Fin 16) (c : Fin 512) (h : Fin 1024) : (⟨4, ![16, 512, 32, 32]⟩ : Shape).Idx :=
  ValueIdx.ix4 b c (⟨h.val / 32, by have := h.isLt; omega⟩ : Fin 32) (⟨h.val % 32, Nat.mod_lt _ (by norm_num)⟩ : Fin 32)

/-- Batch element `b` of a four-axis feature array as channels × flattened positions. -/
def batchOf (x : (⟨4, ![16, 512, 32, 32]⟩ : Shape).Idx → EReal) (b : Fin 16) : Fin 512 → Fin 1024 → EReal :=
  fun c h => x (unflat b c h)

/-- The weight array by its two coordinates. -/
def weightOf (x : (⟨2, ![1024, 1024]⟩ : Shape).Idx → EReal) : Fin 1024 → Fin 1024 → EReal :=
  fun o h => x (ValueIdx.ix2 o h)

/-- THE RESULT ARRAY as one function of the three argument arrays: at `(b, c, j)` the attention result of batch
    element `b`. -/
def result (x0 x1 : (⟨4, ![16, 512, 32, 32]⟩ : Shape).Idx → EReal) (x2 : (⟨2, ![1024, 1024]⟩ : Shape).Idx → EReal) :
    (⟨3, ![16, 512, 1024]⟩ : Shape).Idx → EReal :=
  fun i => attend (batchOf x0 (i 0 : Fin 16)) (batchOf x1 (i 0 : Fin 16)) (weightOf x2) (i 1 : Fin 512) (i 2 : Fin 1024)

/-- A row maximum started at −∞ is at least −∞, so one more `max` with −∞ changes nothing. -/
theorem max_negInf_rowMax (e : Fin 1024 → EReal) : max negInf (rowMax e) = rowMax e :=
  max_eq_right ((Finset.le_fold_max _).mpr (Or.inl le_rfl))

/-- Position `off + k` of the 1024, for `k` inside a quarter that starts at `off`. -/
def quarterAt (off : Nat) (hoff : off + 256 ≤ 1024) (k : Fin 256) : Fin 1024 := ⟨off + k.val, by have := k.isLt; omega⟩

theorem quarterAt_val (off : Nat) (hoff : off + 256 ≤ 1024) (k : Fin 256) : (quarterAt off hoff k).val = off + k.val := rfl

/-- A sum over `n + 256` positions is the sum over the first `n` plus the sum over the last quarter. -/
theorem sum_last_quarter (n : Nat) (hn : n + 256 ≤ 1024) (g : Nat → EReal) :
    ∑ k ∈ Finset.range (n + 256), g k = ∑ k ∈ Finset.range n, g k + ∑ k : Fin 256, g (n + k.val) := by
  rw [Finset.sum_range_add, Fin.sum_univ_eq_sum_range (fun k => g (n + k)) 256]

/-- THE QUARTERS: the four quarter sums, added in order to zero, are the whole sum. -/
theorem sum_four_quarters (f : Fin 1024 → EReal) :
    (((0 + ∑ k : Fin 256, f (quarterAt 0 (by norm_num) k)) + ∑ k : Fin 256, f (quarterAt 256 (by norm_num) k))
        + ∑ k : Fin 256, f (quarterAt 512 (by norm_num) k)) + ∑ k : Fin 256, f (quarterAt 768 (by norm_num) k)
      = ∑ k : Fin 1024, f k := by
  -- extend `f` by zero beyond 1024 so that the sums run over ranges of numbers
  let g : Nat → EReal := fun k => if h : k < 1024 then f ⟨k, h⟩ else 0
  have hg : ∀ (off : Nat) (hoff : off + 256 ≤ 1024) (k : Fin 256), f (quarterAt off hoff k) = g (off + k.val) := by
    intro off hoff k
    have hk : off + k.val < 1024 := by have := k.isLt; omega
    show _ = if h : off + k.val < 1024 then f ⟨off + k.val, h⟩ else 0
    rw [dif_pos hk]; rfl
  have hf : ∑ k : Fin 1024, f k = ∑ k ∈ Finset.range 1024, g k := by
    rw [← Fin.sum_univ_eq_sum_range g 1024]
    refine Finset.sum_congr rfl fun k _ => ?_
    show _ = if h : k.val < 1024 then f ⟨k.val, h⟩ else 0
    rw [dif_pos k.isLt]
  have e4 : ∑ k ∈ Finset.range 1024, g k = ∑ k ∈ Finset.range 768, g k + ∑ k : Fin 256, g (768 + k.val) :=
    sum_last_quarter 768 (by norm_num) g
  have e3 : ∑ k ∈ Finset.range 768, g k = ∑ k ∈ Finset.range 512, g k + ∑ k : Fin 256, g (512 + k.val) :=
    sum_last_quarter 512 (by norm_num) g
  have e2 : ∑ k ∈ Finset.range 512, g k = ∑ k ∈ Finset.range 256, g k + ∑ k : Fin 256, g (256 + k.val) :=
    sum_last_quarter 256 (by norm_num) g
  have e1 : ∑ k ∈ Finset.range 256, g k = ∑ k ∈ Finset.range 0, g k + ∑ k : Fin 256, g (0 + k.val) :=
    sum_last_quarter 0 (by norm_num) g
  rw [hf, e4, e3, e2, e1, Finset.range_zero, Finset.sum_empty]
  simp only [hg]

end Cert.Attention

end
-- ==== Proof.ReferenceAttention.lean ====
/-
  The reference, read one operation at a time, is the attention function of `Attention.lean`.

  The reference flattens each feature array to [16, 512, 1024], projects the first by the weight
  (`x[b,c,o] = Σ_h n1[b,c,h] · w[o,h]`), contracts the channel axis against the second
  (`e[b,o,h] = Σ_c x[b,c,o] · n2[b,c,h]`), takes the softmax of each row `e[b,o,·]` — a row maximum started at −∞
  and joined with −∞ once more, the exponentials of the differences, their sum started at zero, the quotient — and
  contracts the result against the second array again (`m[b,c,j] = Σ_k n2[b,c,k] · a[b,k,j]`). Each stage below is
  stated at explicit coordinates `(b, c, h)`; the row maximum is read as a fold of `max` over the row's positions.
-/
import proofs.«153894_j83769042141765_2_alg».proof.Proof.Gen.ReferenceIdeal.Read
import proofs.«153894_j83769042141765_2_alg».proof.Proof.Attention

noncomputable section

namespace Cert.ReferenceIdeal.AttentionRead

open Cert.ReferenceIdeal Cert.ReferenceIdeal.Gen Cert.ReferenceIdeal.Read Idealize.ShloMosaic Idealize.ShloMosaic.ValueIdx Cert.Attention

variable (x0 x1 : (⟨S16x512x32x32, .f32⟩ : BufTy).Contents (Elt Ideal)) (x2 : (⟨S1024x1024, .f32⟩ : BufTy).Contents (Elt Ideal))

/-- The flattened view at `(b, c, h)` reads the four-axis array at row `h / 32`, column `h % 32` of the map. -/
theorem unflat_eq (b : Fin 16) (c : Fin 512) (h : Fin 1024) : idx_main_v0 (ix3 b c h) = unflat b c h := by
  have hb : b.val < 16 := b.isLt
  have hc : c.val < 512 := c.isLt
  have hh : h.val < 1024 := h.isLt
  funext a; apply Fin.ext
  match a with
  | ⟨0, _⟩ => show ((b.val * 512 + c.val) * 1024 + h.val) / 524288 = b.val; omega
  | ⟨1, _⟩ => show ((b.val * 512 + c.val) * 1024 + h.val) / 1024 % 512 = c.val; omega
  | ⟨2, _⟩ => show ((b.val * 512 + c.val) * 1024 + h.val) / 32 % 32 = h.val / 32; omega
  | ⟨3, _⟩ => show ((b.val * 512 + c.val) * 1024 + h.val) % 32 = h.val % 32; omega

theorem flat_first (b : Fin 16) (c : Fin 512) (h : Fin 1024) :
    val_main_v0 (F := Ideal) x0 (ix3 b c h) = batchOf x0 b c h := by
  rw [val_main_v0_apply, unflat_eq]; rfl

theorem flat_second (b : Fin 16) (c : Fin 512) (h : Fin 1024) :
    val_main_v1 (F := Ideal) x1 (ix3 b c h) = batchOf x1 b c h := by
  rw [val_main_v1_apply]
  exact congrArg x1 (unflat_eq b c h)

/-- The projection: `x[b,c,o] = Σ_h n1[b,c,h] · w[o,h]`. -/
theorem projected (b : Fin 16) (c : Fin 512) (o : Fin 1024) :
    val_main_v2 (F := Ideal) x0 x2 (ix3 b c o) = proj (batchOf x0 b) (weightOf x2) c o := by
  rw [val_main_v2_apply]
  unfold proj
  refine Finset.sum_congr rfl fun h _ => ?_
  have e1 : lidx_main_v2 (ix3 b c o) h = ix3 b c h :=
    funext fun a => Fin.ext (by match a with | ⟨0, _⟩ => rfl | ⟨1, _⟩ => rfl | ⟨2, _⟩ => rfl)
  have e2 : ridx_main_v2 (ix3 b c o) h = ix2 o h :=
    funext fun a => Fin.ext (by match a with | ⟨0, _⟩ => rfl | ⟨1, _⟩ => rfl)
  rw [e1, e2, flat_first]; rfl

/-- The scores: `e[b,o,h] = Σ_c x[b,c,o] · n2[b,c,h]`. -/
theorem scores (b : Fin 16) (o h : Fin 1024) :
    val_main_v3 (F := Ideal) x0 x1 x2 (ix3 b o h) = score (batchOf x0 b) (batchOf x1 b) (weightOf x2) o h := by
  rw [val_main_v3_apply]
  unfold score
  refine Finset.sum_congr rfl fun c _ => ?_
  have e1 : lidx_main_v3 (ix3 b o h) c = ix3 b c o :=
    funext fun a => Fin.ext (by match a with | ⟨0, _⟩ => rfl | ⟨1, _⟩ => rfl | ⟨2, _⟩ => rfl)
  have e2 : ridx_main_v3 (ix3 b o h) c = ix3 b c h :=
    funext fun a => Fin.ext (by match a with | ⟨0, _⟩ => rfl | ⟨1, _⟩ => rfl | ⟨2, _⟩ => rfl)
  rw [e1, e2, projected, flat_second]

/-- Dropping the last axis of the scores leaves the [16, 1024] array of rows. -/
theorem rows_of_scores : S16x1024x1024.Reduces [2] S16x1024 := by decide

/-- The row maximum: the reduction over the last axis is the fold of `max` from −∞ over the row's positions. -/
theorem row_maximum (b : Fin 16) (o : Fin 1024) :
    val_main_v4 (F := Ideal) x0 x1 x2 (ix2 b o) = rowMax (score (batchOf x0 b) (batchOf x1 b) (weightOf x2) o) := by
  unfold val_main_v4
  have hred : S16x1024x1024.Reduces [2] S16x1024 := rows_of_scores
  refine (Host.reduce_eq_fold_single (α := EReal) (FloatOps.maximumf (F := Ideal) (φ := .f32))
    (show FVec Ideal S16x1024x1024 .f32 from val_main_v3 (F := Ideal) x0 x1 x2) (show FVec Ideal S_ .f32 from val_main_cst (F := Ideal))
    reducesTo_S16x1024x1024_S16x1024_d2 hred h_S_ (ix2 b o)).trans ?_
  unfold rowMax
  have el : ∀ h : Fin 1024, hred.lift (ix2 b o) h = ix3 b o h := fun h =>
    funext fun a => Fin.ext (by match a with | ⟨0, _⟩ => rfl | ⟨1, _⟩ => rfl | ⟨2, _⟩ => rfl)
  have ef : (fun h : Fin 1024 => val_main_v3 (F := Ideal) x0 x1 x2 (hred.lift (ix2 b o) h))
      = score (batchOf x0 b) (batchOf x1 b) (weightOf x2) o :=
    funext fun h => by rw [el h, scores]
  exact congrArg (fun f : Fin 1024 → EReal => (Finset.univ : Finset (Fin 1024)).fold max negInf f) ef

/-- Joined once more with −∞, the row maximum is unchanged. -/
theorem row_maximum_joined (b : Fin 16) (o : Fin 1024) :
    val_main_v6 (F := Ideal) x0 x1 x2 (ix2 b o) = rowMax (score (batchOf x0 b) (batchOf x1 b) (weightOf x2) o) := by
  rw [val_main_v6_apply, val_main_v5_apply, val_main_cst_0_apply, row_maximum]
  exact max_negInf_rowMax _

theorem row_maximum_spread (b : Fin 16) (o h : Fin 1024) :
    val_main_v8 (F := Ideal) x0 x1 x2 (ix3 b o h) = rowMax (score (batchOf x0 b) (batchOf x1 b) (weightOf x2) o) := by
  rw [val_main_v8_apply, val_main_v7_apply]
  have e : idx_main_v7 (idx_main_v8 (ix3 b o h)) = ix2 b o :=
    funext fun a => Fin.ext (by match a with | ⟨0, _⟩ => rfl | ⟨1, _⟩ => rfl)
  rw [e, row_maximum_joined]

/-- The exponentials of the scores less their row's maximum. -/
theorem exponentials (b : Fin 16) (o h : Fin 1024) :
    val_main_v10 (F := Ideal) x0 x1 x2 (ix3 b o h)
      = Ideal.exp (score (batchOf x0 b) (batchOf x1 b) (weightOf x2) o h - rowMax (score (batchOf x0 b) (batchOf x1 b) (weightOf x2) o)) := by
  rw [val_main_v10_apply, val_main_v9_apply, scores, row_maximum_spread]
  rfl

/-- Their sum over the row, started at zero. -/
theorem row_sum (b : Fin 16) (o : Fin 1024) :
    val_main_v11 (F := Ideal) x0 x1 x2 (ix2 b o)
      = ∑ h : Fin 1024, Ideal.exp (score (batchOf x0 b) (batchOf x1 b) (weightOf x2) o h - rowMax (score (batchOf x0 b) (batchOf x1 b) (weightOf x2) o)) := by
  rw [val_main_v11_apply, val_main_cst_1_apply]
  show Ideal.ofBits .f32 0x00000000#32 + _ = _
  rw [Ideal.ofBits_zero_f32, zero_add]
  refine Finset.sum_congr rfl fun h _ => ?_
  have e : idx_main_v11 (ix2 b o) h = ix3 b o h :=
    funext fun a => Fin.ext (by match a with | ⟨0, _⟩ => rfl | ⟨1, _⟩ => rfl | ⟨2, _⟩ => rfl)
  rw [e, exponentials]

theorem row_sum_spread (b : Fin 16) (o h : Fin 1024) :
    val_main_v13 (F := Ideal) x0 x1 x2 (ix3 b o h)
      = ∑ h' : Fin 1024, Ideal.exp (score (batchOf x0 b) (batchOf x1 b) (weightOf x2) o h' - rowMax (score (batchOf x0 b) (batchOf x1 b) (weightOf x2) o)) := by
  rw [val_main_v13_apply, val_main_v12_apply]
  have e : idx_main_v12 (idx_main_v13 (ix3 b o h)) = ix2 b o :=
    funext fun a => Fin.ext (by match a with | ⟨0, _⟩ => rfl | ⟨1, _⟩ => rfl)
  rw [e, row_sum]

/-- The attention weights: each row's softmax. -/
theorem weights (b : Fin 16) (o h : Fin 1024) :
    val_main_v14 (F := Ideal) x0 x1 x2 (ix3 b o h) = softmaxRow (score (batchOf x0 b) (batchOf x1 b) (weightOf x2) o) h := by
  rw [val_main_v14_apply, exponentials, row_sum_spread]
  rfl

/-- The result at `(b, c, j)`. -/
theorem attended (b : Fin 16) (c : Fin 512) (j : Fin 1024) :
    val_main_v15 (F := Ideal) x0 x1 x2 (ix3 b c j) = attend (batchOf x0 b) (batchOf x1 b) (weightOf x2) c j := by
  rw [val_main_v15_apply]
  unfold attend
  refine Finset.sum_congr rfl fun k _ => ?_
  have e1 : lidx_main_v15 (ix3 b c j) k = ix3 b c k :=
    funext fun a => Fin.ext (by match a with | ⟨0, _⟩ => rfl | ⟨1, _⟩ => rfl | ⟨2, _⟩ => rfl)
  have e2 : ridx_main_v15 (ix3 b c j) k = ix3 b k j :=
    funext fun a => Fin.ext (by match a with | ⟨0, _⟩ => rfl | ⟨1, _⟩ => rfl | ⟨2, _⟩ => rfl)
  rw [e1, e2, flat_second, weights]

/-- THE REFERENCE'S RESULT ARRAY is `Attention.result` of its three arguments. -/
theorem reference_result : val_main_v15 (F := Ideal) x0 x1 x2 = result x0 x1 x2 := by
  funext i
  obtain ⟨b, c, j, rfl⟩ : ∃ (b : Fin 16) (c : Fin 512) (j : Fin 1024), i = ix3 b c j := ⟨i 0, i 1, i 2, eq_ix3 i⟩
  exact attended x0 x1 x2 b c j

end Cert.ReferenceIdeal.AttentionRead

end
-- ==== Proof.Quarters.lean ====
/-
  The kernel's body, for one batch element, is the attention function of `Attention.lean`.

  The body holds the two feature blocks `n1, n2 : [512, 1024]` and the transposed weight `wt[h, o] = w[o, h]`. It
  projects `x = n1 · wt`, and then treats the 1024 score rows a quarter at a time: for the quarter that starts at row
  `off` it contracts the channel axis of `x[:, off .. off+256]` against `n2` (the scores of those 256 rows), takes each
  row's softmax — maximum from −∞, exponentials of the differences, their sum, the quotient —, and multiplies
  `n2[:, off .. off+256]` by the 256 × 1024 weights. The four products are added, in order, to a zero block.
  Each step is read at an index as a finite sum over the contracted coordinate; the four quarter sums then make the
  one sum over all 1024 rows (`Attention.sum_four_quarters`). Changes of float format are the identity on the
  extended reals and are not mentioned again.
-/
import proofs.«153894_j83769042141765_2_alg».proof.Proof.Gen.KernelIdeal
import proofs.«153894_j83769042141765_2_alg».proof.Proof.Gen.KernelIdeal.Skeleton
import proofs.«153894_j83769042141765_2_alg».proof.Proof.Attention
import Idealize.ShloMosaic.Lib.Pipeline.Value
import Idealize.ShloMosaic.Lib.ValueIdx
import Idealize.ShloMosaic.PureOps.Ideal.Laws

noncomputable section

namespace Cert.KernelIdeal.Quarters

open Cert.KernelIdeal Cert.KernelIdeal.Gen Idealize.ShloMosaic Idealize.ShloMosaic.ValueIdx Cert.Attention

/-! ## The three matrix products, read at an index

Each contracts one axis; into a zero accumulator the product at an output index is the sum, over that axis's
coordinate, of the operands' products. -/

theorem product_rows_by_cols_lhs_kept (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem product_rows_by_cols_lhs_summed (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem product_rows_by_cols_rhs_kept (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem product_rows_by_cols_rhs_summed (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- Rows times columns, [512, 1024] · [1024, 1024]: the projection. -/
theorem product_rows_by_cols (L : FVec Ideal S512x1024 .bf16) (R : FVec Ideal S1024x1024 .bf16) (c : Fin 512) (o : Fin 1024) :
    matmul dot_S512x1024_S1024x1024_S512x1024_1_0_0_1_n_n none L R (constant (F := Ideal) S512x1024 .f32 0x00000000#32) (ix2 c o)
      = ∑ h : Fin 1024, L (ix2 c h) * R (ix2 h o) := by
  refine (Ideal.matmul_constant_zero_apply dot_S512x1024_S1024x1024_S512x1024_1_0_0_1_n_n none L R (ix2 c o)).trans ?_
  rw [← Equiv.sum_comp (contrEquiv1 dot_S512x1024_S1024x1024_S512x1024_1_0_0_1_n_n 1024 rfl rfl).symm]
  refine Finset.sum_congr rfl fun h _ => ?_
  have hk := contrEquiv1_symm_val dot_S512x1024_S1024x1024_S512x1024_1_0_0_1_n_n 1024 rfl rfl h
  have el : dot_S512x1024_S1024x1024_S512x1024_1_0_0_1_n_n.lhsIdx (ix2 c o) ((contrEquiv1 dot_S512x1024_S1024x1024_S512x1024_1_0_0_1_n_n 1024 rfl rfl).symm h) = ix2 c h := funext fun a => Fin.ext (by
    match a with
    | ⟨0, _⟩ => exact product_rows_by_cols_lhs_kept _ _
    | ⟨1, _⟩ => exact (product_rows_by_cols_lhs_summed _ _).trans hk)
  have er : dot_S512x1024_S1024x1024_S512x1024_1_0_0_1_n_n.rhsIdx (ix2 c o) ((contrEquiv1 dot_S512x1024_S1024x1024_S512x1024_1_0_0_1_n_n 1024 rfl rfl).symm h) = ix2 h o := funext fun a => Fin.ext (by
    match a with
    | ⟨1, _⟩ => exact product_rows_by_cols_rhs_kept _ _
    | ⟨0, _⟩ => exact (product_rows_by_cols_rhs_summed _ _).trans hk)
  rw [el, er]

theorem product_over_channels_lhs_kept (i : S256x1024.Idx) (q : dot_S512x256_S512x1024_S256x1024_0_0_1_1_n_n.contr.Idx) :
    (dot_S512x256_S512x1024_S256x1024_0_0_1_1_n_n.lhsIdx i q 1).val = (i 0).val := by
  unfold DotDims.lhsIdx
  rw [dif_neg (show ¬(1 : Fin S512x256.rank) ∈ dot_S512x256_S512x1024_S256x1024_0_0_1_1_n_n.lhsBatch by decide), dif_pos (show (1 : Fin S512x256.rank) ∈ dot_S512x256_S512x1024_S256x1024_0_0_1_1_n_n.lhsNonContracting by decide)]
  rfl
theorem product_over_channels_lhs_summed (i : S256x1024.Idx) (q : dot_S512x256_S512x1024_S256x1024_0_0_1_1_n_n.contr.Idx) :
    (dot_S512x256_S512x1024_S256x1024_0_0_1_1_n_n.lhsIdx i q 0).val = (q ⟨0, by decide⟩).val :=
  dot_S512x256_S512x1024_S256x1024_0_0_1_1_n_n.lhsIdx_val_of_single rfl i q
theorem product_over_channels_rhs_kept (i : S256x1024.Idx) (q : dot_S512x256_S512x1024_S256x1024_0_0_1_1_n_n.contr.Idx) :
    (dot_S512x256_S512x1024_S256x1024_0_0_1_1_n_n.rhsIdx i q 1).val = (i 1).val := by
  unfold DotDims.rhsIdx
  rw [dif_neg (show ¬(1 : Fin S512x1024.rank) ∈ dot_S512x256_S512x1024_S256x1024_0_0_1_1_n_n.rhsBatch by decide), dif_pos (show (1 : Fin S512x1024.rank) ∈ dot_S512x256_S512x1024_S256x1024_0_0_1_1_n_n.rhsNonContracting by decide)]
  rfl
theorem product_over_channels_rhs_summed (i : S256x1024.Idx) (q : dot_S512x256_S512x1024_S256x1024_0_0_1_1_n_n.contr.Idx) :
    (dot_S512x256_S512x1024_S256x1024_0_0_1_1_n_n.rhsIdx i q 0).val = (q ⟨0, by decide⟩).val :=
  dot_S512x256_S512x1024_S256x1024_0_0_1_1_n_n.rhsIdx_val_of_single rfl i q

/-- Both operands contracted on their FIRST axis, [512, 256]ᵀ · [512, 1024]: a quarter's scores. -/
theorem product_over_channels (L : FVec Ideal S512x256 .bf16) (R : FVec Ideal S512x1024 .bf16) (k : Fin 256) (h : Fin 1024) :
    matmul dot_S512x256_S512x1024_S256x1024_0_0_1_1_n_n none L R (constant (F := Ideal) S256x1024 .f32 0x00000000#32) (ix2 k h)
      = ∑ c : Fin 512, L (ix2 c k) * R (ix2 c h) := by
  refine (Ideal.matmul_constant_zero_apply dot_S512x256_S512x1024_S256x1024_0_0_1_1_n_n none L R (ix2 k h)).trans ?_
  rw [← Equiv.sum_comp (contrEquiv1 dot_S512x256_S512x1024_S256x1024_0_0_1_1_n_n 512 rfl rfl).symm]
  refine Finset.sum_congr rfl fun c _ => ?_
  have hk := contrEquiv1_symm_val dot_S512x256_S512x1024_S256x1024_0_0_1_1_n_n 512 rfl rfl c
  have el : dot_S512x256_S512x1024_S256x1024_0_0_1_1_n_n.lhsIdx (ix2 k h) ((contrEquiv1 dot_S512x256_S512x1024_S256x1024_0_0_1_1_n_n 512 rfl rfl).symm c) = ix2 c k := funext fun a => Fin.ext (by
    match a with
    | ⟨1, _⟩ => exact product_over_channels_lhs_kept _ _
    | ⟨0, _⟩ => exact (product_over_channels_lhs_summed _ _).trans hk)
  have er : dot_S512x256_S512x1024_S256x1024_0_0_1_1_n_n.rhsIdx (ix2 k h) ((contrEquiv1 dot_S512x256_S512x1024_S256x1024_0_0_1_1_n_n 512 rfl rfl).symm c) = ix2 c h := funext fun a => Fin.ext (by
    match a with
    | ⟨1, _⟩ => exact product_over_channels_rhs_kept _ _
    | ⟨0, _⟩ => exact (product_over_channels_rhs_summed _ _).trans hk)
  rw [el, er]

theorem product_over_quarter_lhs_kept (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem product_over_quarter_lhs_summed (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem product_over_quarter_rhs_kept (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl
theorem product_over_quarter_rhs_summed (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q

/-- Rows times columns, [512, 256] · [256, 1024]: a quarter's contribution to the result. -/
theorem product_over_quarter (L : FVec Ideal S512x256 .bf16) (R : FVec Ideal S256x1024 .bf16) (c : Fin 512) (j : Fin 1024) :
    matmul dot_S512x256_S256x1024_S512x1024_1_0_0_1_n_n none L R (constant (F := Ideal) S512x1024 .f32 0x00000000#32) (ix2 c j)
      = ∑ k : Fin 256, L (ix2 c k) * R (ix2 k j) := by
  refine (Ideal.matmul_constant_zero_apply dot_S512x256_S256x1024_S512x1024_1_0_0_1_n_n none L R (ix2 c j)).trans ?_
  rw [← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 c j) ((contrEquiv1 dot_S512x256_S256x1024_S512x1024_1_0_0_1_n_n 256 rfl rfl).symm k) = ix2 c k := funext fun a => Fin.ext (by
    match a with
    | ⟨0, _⟩ => exact product_over_quarter_lhs_kept _ _
    | ⟨1, _⟩ => exact (product_over_quarter_lhs_summed _ _).trans hk)
  have er : dot_S512x256_S256x1024_S512x1024_1_0_0_1_n_n.rhsIdx (ix2 c j) ((contrEquiv1 dot_S512x256_S256x1024_S512x1024_1_0_0_1_n_n 256 rfl rfl).symm k) = ix2 k j := funext fun a => Fin.ext (by
    match a with
    | ⟨1, _⟩ => exact product_over_quarter_rhs_kept _ _
    | ⟨0, _⟩ => exact (product_over_quarter_rhs_summed _ _).trans hk)
  rw [el, er]

/-! ## Layout steps read at an index -/

/-- Columns `off .. off + 256` of a [512, 1024] block: column `k` of the slice is column `off + k` of the block. -/
theorem quarter_columns (v : FVec Ideal S512x1024 .bf16) (off : Nat) (hoff : off + 256 ≤ 1024)
    (hs : S512x1024.Slices ![0, off] S512x256) (c : Fin 512) (k : Fin 256) :
    extractStridedSlice S512x256 ![0, off] v hs (ix2 c k) = v (ix2 c (quarterAt off hoff k)) :=
  extractStridedSlice_apply ![0, off] v hs (ix2 c k) (ix2 c (quarterAt off hoff k)) (by
    intro a
    match a with
    | ⟨0, _⟩ => show c.val = 0 + c.val; omega
    | ⟨1, _⟩ => show off + k.val = off + k.val; rfl)

/-- A per-row value laid along its row: the [256] vector as a [256, 1] column, spread to [256, 1024]. -/
theorem along_rows (v : FVec Ideal S256 .f32) (k : Fin 256) (j : Fin 1024) :
    broadcastTo S256x1024 (shapeCast S256x1 v shapeCasts_S256_S256x1) broadcasts_S256x1_S256x1024 (ix2 k j) = v (ix1 k) := by
  refine (broadcastTo_apply _ broadcasts_S256x1_S256x1024 (ix2 k j) (ix2 k (0 : Fin 1)) ?_).trans ?_
  · intro a
    match a with
    | ⟨0, _⟩ => show k.val = if (256 : Nat) = 1 then 0 else k.val; rw [if_neg (by decide)]
    | ⟨1, _⟩ => show (0 : Nat) = if (1 : Nat) = 1 then 0 else j.val; rw [if_pos rfl]
  · exact shapeCast_apply v shapeCasts_S256_S256x1 (ix2 k (0 : Fin 1)) (ix1 k) (by
      rw [Shape.rowMajor_val_one, Shape.rowMajor_val_two]; show k.val = k.val * 1 + 0; omega)

/-- Row `k` of a [256, 1024] block, position by position. -/
theorem row_positions (k : Fin 256) (h : Fin 1024) : reduces_S256x1024_S256.lift (ix1 k) h = ix2 k h :=
  funext fun a => Fin.ext (by match a with | ⟨0, _⟩ => rfl | ⟨1, _⟩ => rfl)

/-! ## One quarter of the rows -/

/-- Each row's maximum, from −∞, laid along the row. -/
def rowMaxima (e : FVec Ideal S256x1024 .f32) : FVec Ideal S256x1024 .f32 :=
  broadcastTo S256x1024 (shapeCast S256x1 (multiReduction .maximumf [1] S256 e 0xFF800000#32 reduces_S256x1024_S256 (.inl rfl) rfl) shapeCasts_S256_S256x1) broadcasts_S256x1_S256x1024

/-- The exponentials of the scores less their row's maximum. -/
def shifted (e : FVec Ideal S256x1024 .f32) : FVec Ideal S256x1024 .f32 := exp (subf e (rowMaxima e))

/-- Each row's sum, from zero, laid along the row. -/
def rowSums (p : FVec Ideal S256x1024 .f32) : FVec Ideal S256x1024 .f32 :=
  broadcastTo S256x1024 (shapeCast S256x1 (multiReduction .add [1] S256 p 0x00000000#32 reduces_S256x1024_S256 (.inl rfl) rfl) shapeCasts_S256_S256x1) broadcasts_S256x1_S256x1024

/-- The softmax of each of a quarter's 256 rows. -/
def quarterWeights (e : FVec Ideal S256x1024 .f32) : FVec Ideal S256x1024 .bf16 :=
  truncf .bf16 (divf (shifted e) (rowSums (shifted e))) bitsLt_bf16_f32

/-- A quarter's contribution: `n2[:, off .. off+256]` times the softmax of the scores of rows `off .. off+256`. -/
def quarterTerm (xb n2 : FVec Ideal S512x1024 .bf16) (off : Nat) (hs : S512x1024.Slices ![0, off] S512x256) : FVec Ideal S512x1024 .f32 :=
  matmul dot_S512x256_S256x1024_S512x1024_1_0_0_1_n_n none (extractStridedSlice S512x256 ![0, off] n2 hs)
    (quarterWeights (matmul dot_S512x256_S512x1024_S256x1024_0_0_1_1_n_n none (extractStridedSlice S512x256 ![0, off] xb hs) n2 (constant S256x1024 .f32 0x00000000#32)))
    (constant S512x1024 .f32 0x00000000#32)

theorem rowMaxima_apply (e : FVec Ideal S256x1024 .f32) (k : Fin 256) (j : Fin 1024) :
    rowMaxima e (ix2 k j) = rowMax (fun h => e (ix2 k h)) := by
  unfold rowMaxima
  refine (along_rows _ k j).trans ?_
  refine (Ideal.multiReduction_maximumf_single e 0xFF800000#32 reduces_S256x1024_S256 (.inl rfl) rfl (ix1 k)).trans ?_
  unfold rowMax
  have ef : (e ∘ reduces_S256x1024_S256.lift (ix1 k)) = fun h : Fin 1024 => e (ix2 k h) :=
    funext fun h => congrArg e (row_positions k h)
  rw [ef]
  rfl

theorem shifted_apply (e : FVec Ideal S256x1024 .f32) (k : Fin 256) (j : Fin 1024) :
    shifted e (ix2 k j) = Ideal.exp (e (ix2 k j) - rowMax (fun h => e (ix2 k h))) := by
  show Ideal.exp (e (ix2 k j) - rowMaxima e (ix2 k j)) = _
  rw [rowMaxima_apply]

theorem rowSums_apply (p : FVec Ideal S256x1024 .f32) (k : Fin 256) (j : Fin 1024) :
    rowSums p (ix2 k j) = ∑ h : Fin 1024, p (ix2 k h) := by
  unfold rowSums
  refine (along_rows _ k j).trans ?_
  refine (Ideal.multiReduction_add_single p 0x00000000#32 reduces_S256x1024_S256 (.inl rfl) rfl (ix1 k)).trans ?_
  exact Finset.sum_congr rfl fun h _ => congrArg p (row_positions k h)

/-- The kernel's softmax of row `k` of a quarter is `Attention.softmaxRow` of that row. -/
theorem quarterWeights_apply (e : FVec Ideal S256x1024 .f32) (k : Fin 256) (j : Fin 1024) :
    quarterWeights e (ix2 k j) = softmaxRow (fun h => e (ix2 k h)) j := by
  show Ideal.div (shifted e (ix2 k j)) (rowSums (shifted e) (ix2 k j)) = _
  rw [shifted_apply, rowSums_apply]
  unfold softmaxRow
  exact congrArg (Ideal.div _) (Finset.sum_congr rfl fun h _ => shifted_apply e k h)

/-- A quarter's contribution at `(c, j)`: the sum over the quarter's rows `k` of `n2[c, off + k]` times the softmax, at
    `j`, of row `off + k` of the scores `Σ_c' xb[c', ·] · n2[c', ·]`. -/
theorem quarterTerm_apply (xb n2 : FVec Ideal S512x1024 .bf16) (off : Nat) (hoff : off + 256 ≤ 1024)
    (hs : S512x1024.Slices ![0, off] S512x256) (c : Fin 512) (j : Fin 1024) :
    quarterTerm xb n2 off hs (ix2 c j)
      = ∑ k : Fin 256, n2 (ix2 c (quarterAt off hoff k))
          * softmaxRow (fun h => ∑ c' : Fin 512, xb (ix2 c' (quarterAt off hoff k)) * n2 (ix2 c' h)) j := by
  unfold quarterTerm
  refine (product_over_quarter _ _ c j).trans ?_
  refine Finset.sum_congr rfl fun k _ => ?_
  rw [quarter_columns n2 off hoff hs c k, quarterWeights_apply]
  have es : (fun h : Fin 1024 => matmul dot_S512x256_S512x1024_S256x1024_0_0_1_1_n_n none (extractStridedSlice S512x256 ![0, off] xb hs) n2 (constant (F := Ideal) S256x1024 .f32 0x00000000#32) (ix2 k h))
      = fun h : Fin 1024 => ∑ c' : Fin 512, xb (ix2 c' (quarterAt off hoff k)) * n2 (ix2 c' h) := by
    funext h
    refine (product_over_channels _ _ k h).trans ?_
    exact Finset.sum_congr rfl fun c' _ => by rw [quarter_columns xb off hoff hs c' k]
  rw [es]

/-! ## The body's values -/

/-- A [1, 512, 1024] block read as [512, 1024]. -/
theorem drop_unit_axis (x : Vec Ideal S1x512x1024 .f32) (c : Fin 512) (h : Fin 1024) :
    shapeCast S512x1024 x shapeCasts_S1x512x1024_S512x1024 (ix2 c h) = x (ix3 (0 : Fin 1) c h) :=
  shapeCast_apply x shapeCasts_S1x512x1024_S512x1024 (ix2 c h) (ix3 (0 : Fin 1) c h) (by
    rw [Shape.rowMajor_val_three, Shape.rowMajor_val_two]; show (0 * 512 + c.val) * 1024 + h.val = c.val * 1024 + h.val; omega)

/-- The second feature block as the body uses it. -/
theorem second_block (x1 : Vec Ideal S1x512x1024 .f32) (c : Fin 512) (h : Fin 1024) :
    k0_pay2 (F := Ideal) x1 (ix2 c h) = x1 (ix3 (0 : Fin 1) c h) :=
  drop_unit_axis x1 c h

/-- The projected block: `x[c, o] = Σ_h n1[c, h] · wt[h, o]`. -/
theorem projected_block (x0 : Vec Ideal S1x512x1024 .f32) (x2 : Vec Ideal S1024x1024 .bf16) (c : Fin 512) (o : Fin 1024) :
    k0_pay3 (F := Ideal) x0 x2 (ix2 c o) = ∑ h : Fin 1024, x0 (ix3 (0 : Fin 1) c h) * x2 (ix2 h o) := by
  unfold k0_pay3
  refine (product_rows_by_cols _ _ c o).trans ?_
  refine Finset.sum_congr rfl fun h _ => ?_
  rw [shapeCast_self]
  exact congrArg (· * x2 (ix2 h o)) (drop_unit_axis x0 c h)

/-- The first half of the body adds the first two quarters to a zero block … -/
theorem first_two_quarters (x0 x1 : Vec Ideal S1x512x1024 .f32) (x2 : Vec Ideal S1024x1024 .bf16) :
    k0_pay4 (F := Ideal) x0 x1 x2
      = addf (addf (broadcast S512x1024 (Scalar.ofBits .f32 0x00000000#32))
            (quarterTerm (k0_pay3 x0 x2) (k0_pay2 x1) 0 slices_S512x1024_o0_0_S512x256))
          (quarterTerm (k0_pay3 x0 x2) (k0_pay2 x1) 256 slices_S512x1024_o0_256_S512x256) := rfl

/-- … and the second half the last two, and restores the leading unit axis. -/
theorem last_two_quarters (v5 v9 : FVec Ideal S512x1024 .bf16) (v40 : FVec Ideal S512x1024 .f32) :
    k0_pay1 (F := Ideal) v5 v9 v40
      = shapeCast S1x512x1024 (addf (addf v40 (quarterTerm v9 v5 512 slices_S512x1024_o0_512_S512x256))
          (quarterTerm v9 v5 768 slices_S512x1024_o0_768_S512x256)) shapeCasts_S512x1024_S1x512x1024 := rfl

/-- A quarter's contribution in the attention function's own terms. -/
theorem quarter_attended (x0 x1 : Vec Ideal S1x512x1024 .f32) (x2 : Vec Ideal S1024x1024 .bf16) (off : Nat) (hoff : off + 256 ≤ 1024)
    (hs : S512x1024.Slices ![0, off] S512x256) (c : Fin 512) (j : Fin 1024) :
    quarterTerm (k0_pay3 (F := Ideal) x0 x2) (k0_pay2 (F := Ideal) x1) off hs (ix2 c j)
      = ∑ k : Fin 256, (fun k' : Fin 1024 => x1 (ix3 (0 : Fin 1) c k')
          * softmaxRow (score (fun c h => x0 (ix3 (0 : Fin 1) c h)) (fun c h => x1 (ix3 (0 : Fin 1) c h)) (fun o h => x2 (ix2 h o)) k') j)
          (quarterAt off hoff k) := by
  refine (quarterTerm_apply _ _ off hoff hs c j).trans ?_
  refine Finset.sum_congr rfl fun k _ => ?_
  show k0_pay2 (F := Ideal) x1 (ix2 c (quarterAt off hoff k)) * _ = x1 (ix3 (0 : Fin 1) c (quarterAt off hoff k)) * _
  rw [second_block]
  have es : (fun h : Fin 1024 => ∑ c' : Fin 512, k0_pay3 (F := Ideal) x0 x2 (ix2 c' (quarterAt off hoff k)) * k0_pay2 (F := Ideal) x1 (ix2 c' h))
      = score (fun c h => x0 (ix3 (0 : Fin 1) c h)) (fun c h => x1 (ix3 (0 : Fin 1) c h)) (fun o h => x2 (ix2 h o)) (quarterAt off hoff k) := by
    funext h
    unfold score proj
    exact Finset.sum_congr rfl fun c' _ => by rw [projected_block, second_block]
  rw [es]

/-- THE BODY'S RESULT at `(0, c, j)` is the attention function of its three blocks (the weight block transposed). -/
theorem body_attended (x0 x1 : Vec Ideal S1x512x1024 .f32) (x2 : Vec Ideal S1024x1024 .bf16) (c : Fin 512) (j : Fin 1024) :
    k0_pay1 (F := Ideal) (k0_pay2 x1) (k0_pay3 x0 x2) (k0_pay4 x0 x1 x2) (ix3 (0 : Fin 1) c j)
      = attend (fun c h => x0 (ix3 (0 : Fin 1) c h)) (fun c h => x1 (ix3 (0 : Fin 1) c h)) (fun o h => x2 (ix2 h o)) c j := by
  rw [last_two_quarters]
  refine (shapeCast_apply _ shapeCasts_S512x1024_S1x512x1024 (ix3 (0 : Fin 1) c j) (ix2 c j) (by
    rw [Shape.rowMajor_val_three, Shape.rowMajor_val_two]; show c.val * 1024 + j.val = (0 * 512 + c.val) * 1024 + j.val; omega)).trans ?_
  rw [first_two_quarters]
  show (((Ideal.ofBits .f32 0x00000000#32
        + quarterTerm (k0_pay3 (F := Ideal) x0 x2) (k0_pay2 (F := Ideal) x1) 0 slices_S512x1024_o0_0_S512x256 (ix2 c j))
        + quarterTerm (k0_pay3 (F := Ideal) x0 x2) (k0_pay2 (F := Ideal) x1) 256 slices_S512x1024_o0_256_S512x256 (ix2 c j))
        + quarterTerm (k0_pay3 (F := Ideal) x0 x2) (k0_pay2 (F := Ideal) x1) 512 slices_S512x1024_o0_512_S512x256 (ix2 c j))
        + quarterTerm (k0_pay3 (F := Ideal) x0 x2) (k0_pay2 (F := Ideal) x1) 768 slices_S512x1024_o0_768_S512x256 (ix2 c j) = _
  rw [Ideal.ofBits_zero_f32,
    quarter_attended x0 x1 x2 0 (by norm_num) _ c j, quarter_attended x0 x1 x2 256 (by norm_num) _ c j,
    quarter_attended x0 x1 x2 512 (by norm_num) _ c j, quarter_attended x0 x1 x2 768 (by norm_num) _ c j]
  unfold attend
  exact sum_four_quarters (fun k' : Fin 1024 => x1 (ix3 (0 : Fin 1) c k')
    * softmaxRow (score (fun c h => x0 (ix3 (0 : Fin 1) c h)) (fun c h => x1 (ix3 (0 : Fin 1) c h)) (fun o h => x2 (ix2 h o)) k') j)

end Cert.KernelIdeal.Quarters

end
-- ==== Proof.Batches.lean ====
/-
  From one batch element to the whole result array.

  The grid has sixteen points, one per batch element. Point `t` stages block `t` of each flattened feature array
  (the [1, 512, 1024] slab of batch element `t`) and the whole transposed weight, and writes back block `t` of the
  result. Before the region the two feature arrays are flattened from [16, 512, 32, 32] to [16, 512, 1024] and the
  weight is transposed. So what point `t` writes back is the attention function of batch element `t` of the
  arguments — block `t` of `Attention.result` — and the sixteen blocks tile the result array.
-/
import proofs.«153894_j83769042141765_2_alg».proof.Proof.Gen.KernelIdeal.Value
import proofs.«153894_j83769042141765_2_alg».proof.Proof.Quarters
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Batches

open Cert.KernelIdeal Cert.KernelIdeal.Gen Cert.KernelIdeal.Value Cert.KernelIdeal.Quarters Idealize.ShloMosaic.ValueIdx Cert.Attention

variable (m : (ℓ : Loc nD τ sig) → Buf (Elt Ideal) ℓ) (ρ : Dev nD → PrngReg)

/-! ## The index maps, and the arrays as the region finds them -/

/-- Over the sixteen points: the feature windows and the result window sit at block `(t, 0, 0)`, the weight window at
    block `(0, 0)`. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a batch element. -/
def batchIx (t : Fin cfg0.N) : Fin 16 := ⟨t.val, by have := t.isLt; have hN : cfg0.N = 16 := N_0; omega⟩

/-- The region finds the first feature array flattened … -/
theorem first_flattened (c : Dev nD) :
    (V m c main_v0 : S16x512x1024.Idx → EReal)
      = shapeCast S16x512x1024 (m ((c : Thread nD τ).loc main_arg0)) shapeCasts_S16x512x32x32_S16x512x1024 := by
  dsimp only [Gen.V, Gen.hostOps0]; after_results <;> rfl

/-- … and the second … -/
theorem second_flattened (c : Dev nD) :
    (V m c main_v1 : S16x512x1024.Idx → EReal)
      = shapeCast S16x512x1024 (m ((c : Thread nD τ).loc main_arg1)) shapeCasts_S16x512x32x32_S16x512x1024 := by
  dsimp only [Gen.V, Gen.hostOps0]; after_results <;> rfl

/-- … and the weight transposed. -/
theorem weight_transposed (c : Dev nD) :
    (V m c main_v3 : S1024x1024.Idx → EReal)
      = truncf (F := Ideal) .bf16 (transpose S1024x1024 [1, 0] (m ((c : Thread nD τ).loc main_arg2)) transposes_S1024x1024_S1024x1024_1_0) bitsLt_bf16_f32 := by
  dsimp only [Gen.V, Gen.hostOps0]; after_results <;> rfl

/-- The flattened view at `(b, c, h)` reads the four-axis array at row `h / 32`, column `h % 32` of the map. -/
theorem flattened_apply (x : S16x512x32x32.Idx → EReal) (b : Fin 16) (c : Fin 512) (h : Fin 1024) :
    shapeCast S16x512x1024 x shapeCasts_S16x512x32x32_S16x512x1024 (ix3 b c h) = x (unflat b c h) :=
  shapeCast_apply x shapeCasts_S16x512x32x32_S16x512x1024 (ix3 b c h) (unflat b c h) (by
    rw [Shape.rowMajor_val_four, Shape.rowMajor_val_three]
    have hh : h.val < 1024 := h.isLt
    show ((b.val * 512 + c.val) * 32 + h.val / 32) * 32 + h.val % 32 = (b.val * 512 + c.val) * 1024 + h.val
    omega)

/-- The transposed weight at `(h, o)` is the weight at `(o, h)`. -/
theorem transposed_apply (x : S1024x1024.Idx → EReal) (h o : Fin 1024) :
    transpose S1024x1024 [1, 0] x transposes_S1024x1024_S1024x1024_1_0 (ix2 h o) = x (ix2 o h) :=
  transpose_apply [1, 0] x transposes_S1024x1024_S1024x1024_1_0 (ix2 h o) (ix2 o h) (by
    intro b
    match b with
    | ⟨0, _⟩ => rfl
    | ⟨1, _⟩ => rfl)

/-! ## The blocks a point stages -/

/-- Point `t`'s block of the first feature array is batch element `t` of the first argument. -/
theorem first_block (c : Dev nD) (t : Fin cfg0.N) (cc : Fin 512) (h : Fin 1024) :
    iblk m c 0 t (ix3 (0 : Fin 1) cc h) = batchOf (m ((c : Thread nD τ).loc main_arg0)) (batchIx t) cc h := by
  obtain ⟨e0, e1, e2, -⟩ := index_facts t
  unfold iblk
  rw [View.read_apply]
  show V m c main_v0 _ = _
  refine (congrFun (first_flattened m c) _).trans ?_
  have ei : ((cfg0.win 0).blk t).view.emb (ix3 (0 : Fin 1) cc h) = ix3 (batchIx t) cc h := by
    funext a; apply Fin.ext
    match a with
    | ⟨0, _⟩ => show win0_0.index t (0 : Fin 3) * 1 + 1 * 0 = t.val; omega
    | ⟨1, _⟩ => show win0_0.index t (1 : Fin 3) * 512 + 1 * cc.val = cc.val; omega
    | ⟨2, _⟩ => show win0_0.index t (2 : Fin 3) * 1024 + 1 * h.val = h.val; omega
  rw [ei, flattened_apply]
  rfl

/-- Point `t`'s block of the second feature array is batch element `t` of the second argument. -/
theorem second_block_of (c : Dev nD) (t : Fin cfg0.N) (cc : Fin 512) (h : Fin 1024) :
    iblk m c 1 t (ix3 (0 : Fin 1) cc h) = batchOf (m ((c : Thread nD τ).loc main_arg1)) (batchIx t) cc h := by
  obtain ⟨-, -, -, e0, e1, e2, -⟩ := index_facts t
  unfold iblk
  rw [View.read_apply]
  show V m c main_v1 _ = _
  refine (congrFun (second_flattened m c) _).trans ?_
  have ei : ((cfg0.win 1).blk t).view.emb (ix3 (0 : Fin 1) cc h) = ix3 (batchIx t) cc h := by
    funext a; apply Fin.ext
    match a with
    | ⟨0, _⟩ => show win0_1.index t (0 : Fin 3) * 1 + 1 * 0 = t.val; omega
    | ⟨1, _⟩ => show win0_1.index t (1 : Fin 3) * 512 + 1 * cc.val = cc.val; omega
    | ⟨2, _⟩ => show win0_1.index t (2 : Fin 3) * 1024 + 1 * h.val = h.val; omega
  rw [ei, flattened_apply]
  rfl

/-- Every point stages the whole transposed weight: at `(h, o)` the weight argument at `(o, h)`. -/
theorem weight_block (c : Dev nD) (t : Fin cfg0.N) (h o : Fin 1024) :
    iblk m c 2 t (ix2 h o) = weightOf (m ((c : Thread nD τ).loc main_arg2)) o h := by
  obtain ⟨-, -, -, -, -, -, e0, e1, -⟩ := index_facts t
  unfold iblk
  rw [View.read_apply]
  show V m c main_v3 _ = _
  refine (congrFun (weight_transposed m c) _).trans ?_
  have ei : ((cfg0.win 2).blk t).view.emb (ix2 h o) = ix2 h o := by
    funext a; apply Fin.ext
    match a with
    | ⟨0, _⟩ => show win0_2.index t (0 : Fin 2) * 1024 + 1 * h.val = h.val; omega
    | ⟨1, _⟩ => show win0_2.index t (1 : Fin 2) * 1024 + 1 * o.val = o.val; omega
  rw [ei]
  exact transposed_apply _ h o

/-! ## What a point writes back, and the array after the run -/

theorem zero_offsets : (![0, 0, 0] : Fin 3 → Nat) = fun _ => 0 := funext fun a => by fin_cases a <;> rfl
theorem zero_offsets2 : (![0, 0] : Fin 2 → Nat) = fun _ => 0 := funext fun a => by fin_cases a <;> rfl

/-- The result array as one function of the three arguments as launched. -/
abbrev resultOf (c : Dev nD) : S16x512x1024.Idx → EReal :=
  result (m ((c : Thread nD τ).loc main_arg0)) (m ((c : Thread nD τ).loc main_arg1)) (m ((c : Thread nD τ).loc main_arg2))

/-- WHAT POINT `t` WRITES BACK is block `t` of the result function. -/
theorem flushed_eq (c : Dev nD) (t : Fin cfg0.N) :
    (dats m 0 c).flushed 3 t = ((cfg0.win 3).blk t).view.read (Elt Ideal) (resultOf m c) := by
  obtain ⟨-, -, -, -, -, -, -, -, e0, e1, e2⟩ := index_facts t
  rw [Value.flushed3]
  unfold Gen.out0_3
  rw [View.canon_unit_zero zero_offsets]
  simp only [View.ld_unit_zero (S := S1x512x1024) zero_offsets, View.ld_unit_zero (S := S1024x1024) zero_offsets2]
  funext y
  obtain ⟨z, cc, j, rfl⟩ : ∃ (z : Fin 1) (cc : Fin 512) (j : Fin 1024), y = ix3 z cc j := ⟨y 0, y 1, y 2, eq_ix3 y⟩
  obtain rfl : z = 0 := Subsingleton.elim _ _
  show k0_pay1 (F := Ideal) (k0_pay2 (iblk m c 1 t)) (k0_pay3 (iblk m c 0 t) (iblk m c 2 t)) (k0_pay4 (iblk m c 0 t) (iblk m c 1 t) (iblk m c 2 t)) (ix3 (0 : Fin 1) cc j)
    = resultOf m c (((cfg0.win 3).blk t).view.emb (ix3 (0 : Fin 1) cc j))
  refine (body_attended (iblk m c 0 t) (iblk m c 1 t) (iblk m c 2 t) cc j).trans ?_
  have ei : ((cfg0.win 3).blk t).view.emb (ix3 (0 : Fin 1) cc j) = ix3 (batchIx t) cc j := by
    funext a; apply Fin.ext
    match a with
    | ⟨0, _⟩ => show win0_3.index t (0 : Fin 3) * 1 + 1 * 0 = t.val; omega
    | ⟨1, _⟩ => show win0_3.index t (1 : Fin 3) * 512 + 1 * cc.val = cc.val; omega
    | ⟨2, _⟩ => show win0_3.index t (2 : Fin 3) * 1024 + 1 * j.val = j.val; omega
  rw [ei]
  show _ = attend (batchOf (m ((c : Thread nD τ).loc main_arg0)) (batchIx t)) (batchOf (m ((c : Thread nD τ).loc main_arg1)) (batchIx t))
    (weightOf (m ((c : Thread nD τ).loc main_arg2))) cc j
  have b0 : (fun (c' : Fin 512) (h : Fin 1024) => iblk m c 0 t (ix3 (0 : Fin 1) c' h)) = batchOf (m ((c : Thread nD τ).loc main_arg0)) (batchIx t) :=
    funext fun c' => funext fun h => first_block m c t c' h
  have b1 : (fun (c' : Fin 512) (h : Fin 1024) => iblk m c 1 t (ix3 (0 : Fin 1) c' h)) = batchOf (m ((c : Thread nD τ).loc main_arg1)) (batchIx t) :=
    funext fun c' => funext fun h => second_block_of m c t c' h
  have b2 : (fun (o h : Fin 1024) => iblk m c 2 t (ix2 h o)) = weightOf (m ((c : Thread nD τ).loc main_arg2)) :=
    funext fun o => funext fun h => weight_block m c t h o
  rw [b0, b1, b2]

/-- An index of the result array is in point `t`'s block iff each coordinate is in the block's range on its axis. -/
theorem mem_block (t : Fin cfg0.N) (i : S16x512x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v4).slice (win0_3.rect t)).set ↔ _
  rw [View.set_slice_whole, Rect.mem_set_unit]
  exact Iff.rfl

/-- The sixteen blocks tile the result array: index `(b, c, j)` is in point `b`'s block. -/
theorem covered (i : S16x512x1024.Idx) : ∃ t : Fin cfg0.N, (cfg0.win 3).flush t = true ∧ i ∈ ((cfg0.win 3).blk t).view.set := by
  have hN : cfg0.N = 16 := N_0
  have h0 : (i 0).val < 16 := (i 0).isLt
  have h1 : (i 1).val < 512 := (i 1).isLt
  have h2 : (i 2).val < 1024 := (i 2).isLt
  let t : Fin cfg0.N := ⟨(i 0).val, by omega⟩
  obtain ⟨-, -, -, -, -, -, -, -, e0, e1, e2⟩ := index_facts t
  have et : t.val = (i 0).val := rfl
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- THE RESULT ARRAY after the run is the result function of the arguments. -/
theorem final (c : Dev nD) : (dats m 0 c).arrAt 3 cfg0.N = resultOf m c :=
  (dats m 0 c).arrAt_eq_of_cover 3 (resultOf m c) (fun t _ => flushed_eq m c t) covered

/-- The run, read: the result array at the result function of the arguments, the arguments unchanged. -/
theorem run : θ_run defs (onTc (τ := τ) (main (F := Ideal))) ⟨m, fun _ => 0, ρ⟩ fun r => ∀ c : Dev nD,
      r.2.mem ((c : Thread nD τ).loc main_v4) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Batches

end
-- ==== Proof.lean ====
/-
  The kernel and its reference compute, for each of sixteen batch elements, a graph-attention step: from feature
  maps `n1, n2 : [512, 1024]` and a weight `w : [1024, 1024]`,
    x = n1 · wᵀ,   e = xᵀ · n2,   a = softmax of each row of e,   m = n2 · a.
  The reference does this with three contractions over whole [16, ·, ·] arrays. The kernel handles one batch element
  per grid point, with the weight transposed beforehand, and walks the 1024 rows of `e` a quarter at a time, adding
  the four partial products `n2[:, quarter] · a[quarter, :]` to a zero block.

  On the extended reals the two agree index by index: every pointwise step is the same function on both sides, a
  change of float format is the identity, a running maximum started at −∞ is unchanged by one more `max` with −∞,
  and the four quarter sums added in order to zero are the one sum over all 1024 rows — addition commutes and
  associates, so this holds at the infinities too and the finiteness of the inputs is never used.

  `Attention.lean` states the function and the two laws; `ReferenceAttention.lean` reads the reference as that
  function; `Quarters.lean` reads the kernel's body as it; `Batches.lean` goes from the sixteen blocks to the array.
  The three frames are the generated ones (the reference's from its generated run), and the idealization rewrote
  nothing, so there is nothing to preserve.
-/
import proofs.«153894_j83769042141765_2_alg».proof.Defs
import proofs.«153894_j83769042141765_2_alg».proof.Proof.Gen.Kernel
import proofs.«153894_j83769042141765_2_alg».proof.Proof.Gen.Kernel.Skeleton
import proofs.«153894_j83769042141765_2_alg».proof.Proof.Gen.Kernel.Launch
import proofs.«153894_j83769042141765_2_alg».proof.Proof.Gen.Kernel.Points
import proofs.«153894_j83769042141765_2_alg».proof.Proof.Gen.Kernel.Frame
import proofs.«153894_j83769042141765_2_alg».proof.Proof.Gen.KernelIdeal
import proofs.«153894_j83769042141765_2_alg».proof.Proof.Gen.KernelIdeal.Skeleton
import proofs.«153894_j83769042141765_2_alg».proof.Proof.Gen.KernelIdeal.Launch
import proofs.«153894_j83769042141765_2_alg».proof.Proof.Gen.KernelIdeal.Points
import proofs.«153894_j83769042141765_2_alg».proof.Proof.Gen.KernelIdeal.Frame
import proofs.«153894_j83769042141765_2_alg».proof.Proof.Gen.ReferenceIdeal
import proofs.«153894_j83769042141765_2_alg».proof.Proof.Gen.Pre_finite_inputs
import proofs.«153894_j83769042141765_2_alg».proof.Proof.Gen.KernelIdeal.Value
import proofs.«153894_j83769042141765_2_alg».proof.Proof.Gen.ReferenceIdeal.Run
import proofs.«153894_j83769042141765_2_alg».proof.Proof.Gen.ReferenceIdeal.Read
import proofs.«153894_j83769042141765_2_alg».proof.Proof.ReferenceAttention
import proofs.«153894_j83769042141765_2_alg».proof.Proof.Batches
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with their result array at `Attention.result` of the arguments, which agree. -/
theorem algebraic : Cert.algebraic_KernelIdeal_ReferenceIdeal := by
  intro m ρ m' ρ' _ hagree
  refine ⟨fun c => Cert.KernelIdeal.Batches.resultOf m c, Cert.KernelIdeal.Batches.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v15 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [Cert.ReferenceIdeal.AttentionRead.reference_result, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
